-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x32 .f32) (main_arg5 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S2000x128 : Shape := ⟨2, ![2000, 128]⟩
abbrev S2000x1 : Shape := ⟨2, ![2000, 1]⟩
abbrev S1x128 : Shape := ⟨2, ![1, 128]⟩
abbrev S50000x32 : Shape := ⟨2, ![50000, 32]⟩
abbrev S2000x32 : Shape := ⟨2, ![2000, 32]⟩
abbrev S1x32 : Shape := ⟨2, ![1, 32]⟩

abbrev nBuf : Space → Nat
  | .hbm => 46
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x1, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x1, .f32⟩
  | .hbm, ⟨45, _⟩ => ⟨S50000x32, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S128x32, .f32⟩
  | .local _ .vmem, ⟨17, _⟩ => ⟨S32, .f32⟩
  | .local _ .vmem, ⟨18, _⟩ => ⟨S2000x32, .f32⟩
  | .local _ .vmem, ⟨19, _⟩ => ⟨S2000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x32_S2000x32_1_0_0_1_n_n_wf : DotDims.WF S2000x128 S128x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x32.size a ≤ S128x32.size a
  hwx1_3 : ∀ i : grid1.Coords, EltTy.bits .f32 = 32 ∨ (Rect.block (s := S128x32) S128x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x32.size a ≤ S50000x32.size a
  hwx1_5 : ∀ i : grid1.Coords, EltTy.bits .f32 = 32 ∨ (Rect.block (s := S50000x32) S2000x32.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf

abbrev win0_0 : Pipeline.Window sig grid0 :=
  Pipeline.Window.ofSpec (Memref.whole main_v17) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x32 : Shape := ⟨2, ![50000, 32]⟩
abbrev S1x32 : Shape := ⟨2, ![1, 32]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S50000x128, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .i1⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S_, .f32⟩
  | .hbm, ⟨61, _⟩ => ⟨S800000, .f32⟩
  | .hbm, ⟨62, _⟩ => ⟨S_, .f32⟩
  | .hbm, ⟨63, _⟩ => ⟨S50000, .f32⟩
  | .hbm, ⟨64, _⟩ => ⟨S800000x1, .i32⟩
  | .hbm, ⟨65, _⟩ => ⟨S50000, .f32⟩
  | .hbm, ⟨66, _⟩ => ⟨S50000x128, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x32, .f32⟩
  | .hbm, ⟨74, _⟩ => ⟨S1x32, .f32⟩
  | .hbm, ⟨75, _⟩ => ⟨S50000x32, .f32⟩
  | .hbm, ⟨76, _⟩ => ⟨S50000x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x32_S50000x32_1_0_0_1_n_n_wf : DotDims.WF S50000x128 S128x32 S50000x32 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.KernelRun.lean ====
/-
  The kernel program's run, with its result named. Every weakly fair execution of the program — host operations,
  the first layer's grid of 25 points, host operations, the second layer's grid — terminates without a fault, and
  at the end the result array holds what the last boundary of the run holds there: the second layer's output array
  as its 25 write-backs leave it. The arguments end as launched. The statement is the frame's, over the same
  segments and the same launch, with the result array read off the same final thread state.
-/
import proofs.«105902_j25847113187709_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the last boundary's contents,
    the arguments as launched. -/
theorem run_result : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Result

end
-- ==== Proof.Layer.lean ====
/-
  One layer of the graph convolution, entry by entry, on the extended reals.

  A node's row is its own features plus the sum of its in-neighbours' features (the message array), divided by its
  in-degree plus one, then multiplied by the weight matrix, plus the bias:

      affine msg x d W b p q  =  (∑ k, ((msg p k + x p k) / (d p + 1)) · W k q) + b q .

  The hidden layer passes this through the leaky rectifier (the value itself where it is at least zero, a fixed
  small multiple of it elsewhere); the output layer is the affine map alone. The message array, the degree of a row
  and the parameters are arbitrary here: both programs compute them by the same gather and scatter-add, and the
  statements below never look inside them. The float literals stay as their words: the same word is read on both
  sides and is never evaluated.
-/
import Idealize.ShloMosaic.PureOps.Ideal
import Idealize.ShloMosaic.PureOps.Ideal.Laws
import Idealize.ShloMosaic.Lib.ValueIdx

noncomputable section

open scoped BigOperators

namespace Cert.GraphConv

open Idealize.ShloMosaic Idealize.ShloMosaic.ValueIdx

/-- The f32 word of one, read as an extended real. -/
abbrev one : EReal := Ideal.ofBits .f32 0x3F800000#32
/-- The f32 word of zero, read as an extended real. -/
abbrev zero : EReal := Ideal.ofBits .f32 0x00000000#32
/-- The f32 word of the rectifier's slope on the negative side, read as an extended real. -/
abbrev slope : EReal := Ideal.ofBits .f32 0x3C23D70A#32

/-- Entry (p, q) of a layer before any activation: the normalised row p of (msg + x) against column q of W,
    plus the bias at q. The degree d p of row p enters as d p + 1. -/
def affine {D : ℕ} (msg x : (⟨2, ![50000, 128]⟩ : Shape).Idx → EReal) (d : Fin 50000 → EReal)
    (W : (⟨2, ![128, D]⟩ : Shape).Idx → EReal) (b : (⟨1, ![D]⟩ : Shape).Idx → EReal) (p : Fin 50000) (q : Fin D) : EReal :=
  (∑ k : Fin 128, Ideal.div (msg (ix2 p k) + x (ix2 p k)) (d p + one) * W (ix2 k q)) + b (ix1 q)

/-- The leaky rectifier: y where zero ≤ y, slope · y elsewhere. -/
def leaky (y : EReal) : EReal := Scalar.select (Ideal.cmp .oge y zero) y (slope * y)

/-- The hidden layer, a [50000, 128] array: the rectified affine map. -/
def hidden (msg x : (⟨2, ![50000, 128]⟩ : Shape).Idx → EReal) (d : Fin 50000 → EReal)
    (W : (⟨2, ![128, 128]⟩ : Shape).Idx → EReal) (b : (⟨1, ![128]⟩ : Shape).Idx → EReal) :
    (⟨2, ![50000, 128]⟩ : Shape).Idx → EReal :=
  fun i => leaky (affine msg x d W b (i 0) (i 1))

/-- The output layer, a [50000, 32] array: the affine map alone. -/
def logits (msg x : (⟨2, ![50000, 128]⟩ : Shape).Idx → EReal) (d : Fin 50000 → EReal)
    (W : (⟨2, ![128, 32]⟩ : Shape).Idx → EReal) (b : (⟨1, ![32]⟩ : Shape).Idx → EReal) :
    (⟨2, ![50000, 32]⟩ : Shape).Idx → EReal :=
  fun i => affine msg x d W b (i 0) (i 1)

end Cert.GraphConv

end
-- ==== Proof.LibColumn.lean ====
/-
  A column spread along its rows, read at an entry.
-/
import Idealize.ShloMosaic.Lib.Pipeline.Value
import Idealize.ShloMosaic.Lib.ValueIdx

noncomputable section

namespace Cert.GraphConv

open Idealize.ShloMosaic Idealize.ShloMosaic.ValueIdx

/-- An `[a, 1]` array broadcast to `[a, b]` (a keepdims column spread along each row) reads, at `(p, c)`, the
    column's entry of row `p`, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv

end
-- ==== Proof.LayerBlock.lean ====
/-
  One block of a layer, entry by entry. A grid point works on 2000 consecutive rows: it loads that block of the
  message array and of the features, the block's column of degrees, and the whole weight matrix and bias, and
  stores the block of the layer. Read at the block's entry (r, q), what it stores is the affine map of the loaded
  pieces — the product into a zero accumulator is the plain sum over the 128 contracted columns, the change of
  float format before it is the identity on the extended reals, the degrees' column plus one is spread along the
  row, the bias is spread down the rows — and, in the hidden layer, the leaky rectifier of that.
-/
import proofs.«105902_j25847113187709_1_alg».proof.Proof.Gen.KernelIdeal.Skeleton
import proofs.«105902_j25847113187709_1_alg».proof.Proof.Layer
import proofs.«105902_j25847113187709_1_alg».proof.Proof.LibColumn
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.GraphConv

open Idealize.ShloMosaic Idealize.ShloMosaic.ValueIdx Cert.KernelIdeal Cert.KernelIdeal.Gen

/-- Entry (r, q) of a block's affine map, from the pieces a grid point loads: the block's rows of the message
    array and of the features, its column of degrees, the weights and the bias. -/
def affineBlock {D : ℕ} (ms xs : (⟨2, ![2000, 128]⟩ : Shape).Idx → EReal) (dg : (⟨2, ![2000, 1]⟩ : Shape).Idx → EReal)
    (W : (⟨2, ![128, D]⟩ : Shape).Idx → EReal) (b : (⟨1, ![D]⟩ : Shape).Idx → EReal) (r : Fin 2000) (q : Fin D) : EReal :=
  (∑ k : Fin 128, Ideal.div (ms (ix2 r k) + xs (ix2 r k)) (dg (ix2 r (0 : Fin 1)) + one) * W (ix2 k q)) + b (ix1 q)

/-- A block's affine entry at its row r is the array's at the array's row p, when the loaded pieces are the arrays'
    entries of that row: the block's rows of the message array and of the features are rows p of the arrays, the
    block's degree entry is the degree of row p, and the weights and the bias are loaded whole. -/
theorem affineBlock_eq_affine {D : ℕ} (ms xs : (⟨2, ![2000, 128]⟩ : Shape).Idx → EReal) (dg : (⟨2, ![2000, 1]⟩ : Shape).Idx → EReal)
    (Wb : (⟨2, ![128, D]⟩ : Shape).Idx → EReal) (bb : (⟨1, ![D]⟩ : Shape).Idx → EReal)
    (msg x : (⟨2, ![50000, 128]⟩ : Shape).Idx → EReal) (d : Fin 50000 → EReal)
    (W : (⟨2, ![128, D]⟩ : Shape).Idx → EReal) (b : (⟨1, ![D]⟩ : Shape).Idx → EReal)
    (r : Fin 2000) (p : Fin 50000) (q : Fin D)
    (hms : ∀ k : Fin 128, ms (ix2 r k) = msg (ix2 p k)) (hxs : ∀ k : Fin 128, xs (ix2 r k) = x (ix2 p k))
    (hdg : dg (ix2 r (0 : Fin 1)) = d p) (hW : ∀ k : Fin 128, Wb (ix2 k q) = W (ix2 k q)) (hb : bb (ix1 q) = b (ix1 q)) :
    affineBlock ms xs dg Wb bb r q = affine msg x d W b p q := by
  unfold affineBlock affine
  rw [hdg, hb]
  exact congrArg (· + b (ix1 q)) (Finset.sum_congr rfl fun k _ => by rw [hms k, hxs k, hW k])

/-! ## The two block products -/

/-- Entry (r, q) of the block product into a zero accumulator is the plain sum over the contracted axis:
    row r of the left factor against column q of the right one. -/
theorem prodHidden_lhs0 (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem prodHidden_rhs1 (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl
theorem prodHidden_apply (L : FVec Ideal S2000x128 .bf16) (R : FVec Ideal S128x128 .bf16) (r : Fin 2000) (q : Fin 128) :
    matmul dot_S2000x128_S128x128_S2000x128_1_0_0_1_n_n none L R (constant (F := Ideal) S2000x128 .f32 0x00000000#32) (ix2 r q)
      = ∑ k : Fin 128, L (ix2 r k) * R (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q) ((contrEquiv1 dot_S2000x128_S128x128_S2000x128_1_0_0_1_n_n 128 rfl rfl).symm k) = ix2 r k := funext fun a => Fin.ext (by
    match a with
    | ⟨0, _⟩ => exact prodHidden_lhs0 _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 r q) ((contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl _ _).trans hk
    | ⟨1, _⟩ => exact prodHidden_rhs1 _ _)
  rw [el, er]

/-- Entry (r, q) of the block product into a zero accumulator is the plain sum over the contracted axis:
    row r of the left factor against column q of the right one. -/
theorem prodLogits_lhs0 (i : S2000x32.Idx) (k : dot_S2000x128_S128x32_S2000x32_1_0_0_1_n_n.contr.Idx) :
    (dot_S2000x128_S128x32_S2000x32_1_0_0_1_n_n.lhsIdx i k 0).val = (i 0).val := by
  unfold DotDims.lhsIdx
  rw [dif_neg (show ¬(0 : Fin S2000x128.rank) ∈ dot_S2000x128_S128x32_S2000x32_1_0_0_1_n_n.lhsBatch by decide), dif_pos (show (0 : Fin S2000x128.rank) ∈ dot_S2000x128_S128x32_S2000x32_1_0_0_1_n_n.lhsNonContracting by decide)]
  rfl
theorem prodLogits_rhs1 (i : S2000x32.Idx) (k : dot_S2000x128_S128x32_S2000x32_1_0_0_1_n_n.contr.Idx) :
    (dot_S2000x128_S128x32_S2000x32_1_0_0_1_n_n.rhsIdx i k 1).val = (i 1).val := by
  unfold DotDims.rhsIdx
  rw [dif_neg (show ¬(1 : Fin S128x32.rank) ∈ dot_S2000x128_S128x32_S2000x32_1_0_0_1_n_n.rhsBatch by decide), dif_pos (show (1 : Fin S128x32.rank) ∈ dot_S2000x128_S128x32_S2000x32_1_0_0_1_n_n.rhsNonContracting by decide)]
  rfl
theorem prodLogits_apply (L : FVec Ideal S2000x128 .bf16) (R : FVec Ideal S128x32 .bf16) (r : Fin 2000) (q : Fin 32) :
    matmul dot_S2000x128_S128x32_S2000x32_1_0_0_1_n_n none L R (constant (F := Ideal) S2000x32 .f32 0x00000000#32) (ix2 r q)
      = ∑ k : Fin 128, L (ix2 r k) * R (ix2 k q) := by
  simp only [matmul]
  rw [Ideal.matmul_constant_zero_apply, ← Equiv.sum_comp (contrEquiv1 dot_S2000x128_S128x32_S2000x32_1_0_0_1_n_n 128 rfl rfl).symm]
  refine Finset.sum_congr rfl fun k _ => ?_
  have hk := contrEquiv1_symm_val dot_S2000x128_S128x32_S2000x32_1_0_0_1_n_n 128 rfl rfl k
  have el : dot_S2000x128_S128x32_S2000x32_1_0_0_1_n_n.lhsIdx (ix2 r q) ((contrEquiv1 dot_S2000x128_S128x32_S2000x32_1_0_0_1_n_n 128 rfl rfl).symm k) = ix2 r k := funext fun a => Fin.ext (by
    match a with
    | ⟨0, _⟩ => exact prodLogits_lhs0 _ _
    | ⟨1, _⟩ => exact (dot_S2000x128_S128x32_S2000x32_1_0_0_1_n_n.lhsIdx_val_of_single rfl _ _).trans hk)
  have er : dot_S2000x128_S128x32_S2000x32_1_0_0_1_n_n.rhsIdx (ix2 r q) ((contrEquiv1 dot_S2000x128_S128x32_S2000x32_1_0_0_1_n_n 128 rfl rfl).symm k) = ix2 k q := funext fun a => Fin.ext (by
    match a with
    | ⟨0, _⟩ => exact (dot_S2000x128_S128x32_S2000x32_1_0_0_1_n_n.rhsIdx_val_of_single rfl _ _).trans hk
    | ⟨1, _⟩ => exact prodLogits_rhs1 _ _)
  rw [el, er]

/-! ## What a grid point stores -/

/-- The hidden layer's block at (r, q): the rectified affine map of the loaded pieces. -/
theorem hidden_block (v0 : Vec Ideal S2000x1 .f32) (v4 v6 : Vec Ideal S2000x128 .f32) (v11 : Vec Ideal S128x128 .f32)
    (v14 : Vec Ideal S128 .f32) (r : Fin 2000) (q : Fin 128) :
    k0_pay1 (F := Ideal) v0 v4 v6 v11 v14 (ix2 r q) = leaky (affineBlock v4 v6 v0 v11 v14 r q) := by
  unfold k0_pay1
  dsimp only [select_apply, cmpf_apply, mulf_apply, addf_apply, broadcast_apply]
  rw [prodHidden_apply, broadcastTo_1b_ab_apply, shapeCast_a_1a_apply, shapeCast_self, shapeCast_self]
  have hs : (∑ k : Fin 128, truncf .bf16 (divf (addf v4 v6) (broadcastTo S2000x128 (addf v0 (broadcast S2000x1 (FloatOps.ofBits (F := Ideal) .f32 0x3F800000#32))) broadcasts_S2000x1_S2000x128)) bitsLt_bf16_f32 (ix2 r k) * truncf .bf16 v11 bitsLt_bf16_f32 (ix2 k q))
      = ∑ k : Fin 128, Ideal.div (v4 (ix2 r k) + v6 (ix2 r k)) (v0 (ix2 r (0 : Fin 1)) + one) * v11 (ix2 k q) :=
    Finset.sum_congr rfl fun k _ => by
      dsimp only [truncf_apply, divf_apply, addf_apply]
      rw [broadcastTo_a1_ab_apply]
      rfl
  rw [hs]
  rfl

/-- The output layer's block at (r, q): the affine map of the loaded pieces. -/
theorem logits_block (v0 : Vec Ideal S2000x1 .f32) (v4 v6 : Vec Ideal S2000x128 .f32) (v12 : Vec Ideal S128x32 .f32)
    (v15 : Vec Ideal S32 .f32) (r : Fin 2000) (q : Fin 32) :
    k1_pay1 (F := Ideal) v0 v4 v6 v12 v15 (ix2 r q) = affineBlock v4 v6 v0 v12 v15 r q := by
  unfold k1_pay1
  dsimp only [addf_apply]
  rw [prodLogits_apply, broadcastTo_1b_ab_apply, shapeCast_a_1a_apply, shapeCast_self, shapeCast_self, shapeCast_self]
  have hs : (∑ k : Fin 128, truncf .bf16 (divf (addf v4 v6) (broadcastTo S2000x128 (addf v0 (broadcast S2000x1 (FloatOps.ofBits (F := Ideal) .f32 0x3F800000#32))) broadcasts_S2000x1_S2000x128)) bitsLt_bf16_f32 (ix2 r k) * truncf .bf16 v12 bitsLt_bf16_f32 (ix2 k q))
      = ∑ k : Fin 128, Ideal.div (v4 (ix2 r k) + v6 (ix2 r k)) (v0 (ix2 r (0 : Fin 1)) + one) * v12 (ix2 k q) :=
    Finset.sum_congr rfl fun k _ => by
      dsimp only [truncf_apply, divf_apply, addf_apply]
      rw [broadcastTo_a1_ab_apply]
      rfl
  rw [hs]
  rfl

end Cert.GraphConv

end
-- ==== Proof.RegionFirst.lean ====
/-
  The first grid: the hidden layer, as one array. Whatever the buffers hold when the grid is entered, after its 25 points the output
  array is hidden of the five arrays the windows stage — the message array, the features, the degrees' column,
  the weights, the bias — entry by entry: point t writes back rows 2000·t … 2000·t + 1999, its loaded blocks are
  the same rows of the inputs (the weights and the bias whole), and the 25 blocks cover the 50000 rows.
-/
import proofs.«105902_j25847113187709_1_alg».proof.Proof.Gen.KernelIdeal.Frame
import proofs.«105902_j25847113187709_1_alg».proof.Proof.LayerBlock
import Idealize.ShloMosaic.Lib.Pipeline.Value

set_option maxRecDepth 16384

noncomputable section

namespace Cert.GraphConv.First

open Cert.GraphConv Cert.KernelIdeal Cert.KernelIdeal.Gen
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The index maps, decided over the 25 points: the three row-blocked inputs and the output sit at block t of
    their first axis, and the weights and the bias at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## The loaded blocks are rows of the arrays -/

theorem read_msg (c : Dev nD) (t : Fin cfg0.N) (r : Fin 2000) (k : Fin 128) (p : Fin 50000) (hp : p.val = t.val * 2000 + r.val) :
    iblk0 V c 0 t (ix2 r k) = V c main_v17 (ix2 p k) := by
  obtain ⟨e0, e1, -⟩ := index_facts t
  show V c main_v17 (((cfg0.win 0).blk t).view.emb (ix2 r k)) = V c main_v17 (ix2 p k)
  refine congrArg (V c main_v17) (funext fun a => Fin.ext ?_)
  match a with
  | ⟨0, _⟩ => show win0_0.index t (0 : Fin 2) * 2000 + 1 * r.val = p.val; omega
  | ⟨1, _⟩ => show win0_0.index t (1 : Fin 2) * 128 + 1 * k.val = k.val; omega

theorem read_feat (c : Dev nD) (t : Fin cfg0.N) (r : Fin 2000) (k : Fin 128) (p : Fin 50000) (hp : p.val = t.val * 2000 + r.val) :
    iblk0 V c 1 t (ix2 r k) = V c main_arg0 (ix2 p k) := by
  obtain ⟨-, -, e0, e1, -⟩ := index_facts t
  show V c main_arg0 (((cfg0.win 1).blk t).view.emb (ix2 r k)) = V c main_arg0 (ix2 p k)
  refine congrArg (V c main_arg0) (funext fun a => Fin.ext ?_)
  match a with
  | ⟨0, _⟩ => show win0_1.index t (0 : Fin 2) * 2000 + 1 * r.val = p.val; omega
  | ⟨1, _⟩ => show win0_1.index t (1 : Fin 2) * 128 + 1 * k.val = k.val; omega

theorem read_deg (c : Dev nD) (t : Fin cfg0.N) (r : Fin 2000) (p : Fin 50000) (hp : p.val = t.val * 2000 + r.val) :
    iblk0 V c 2 t (ix2 r (0 : Fin 1)) = V c main_v18 (ix2 p (0 : Fin 1)) := by
  obtain ⟨-, -, -, -, e0, e1, -⟩ := index_facts t
  show V c main_v18 (((cfg0.win 2).blk t).view.emb (ix2 r (0 : Fin 1))) = V c main_v18 (ix2 p (0 : Fin 1))
  refine congrArg (V c main_v18) (funext fun a => Fin.ext ?_)
  match a with
  | ⟨0, _⟩ => show win0_2.index t (0 : Fin 2) * 2000 + 1 * r.val = p.val; omega
  | ⟨1, _⟩ => show win0_2.index t (1 : Fin 2) * 1 + 1 * 0 = 0; omega

theorem read_weight (c : Dev nD) (t : Fin cfg0.N) (k : Fin 128) (q : Fin 128) :
    iblk0 V c 3 t (ix2 k q) = V c main_arg2 (ix2 k q) := by
  obtain ⟨-, -, -, -, -, -, e0, e1, -⟩ := index_facts t
  show V c main_arg2 (((cfg0.win 3).blk t).view.emb (ix2 k q)) = V c main_arg2 (ix2 k q)
  refine congrArg (V c main_arg2) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem read_bias (c : Dev nD) (t : Fin cfg0.N) (q : Fin 128) :
    iblk0 V c 4 t (ix1 q) = V c main_arg3 (ix1 q) := by
  obtain ⟨-, -, -, -, -, -, -, -, e0, -⟩ := index_facts t
  show V c main_arg3 (((cfg0.win 4).blk t).view.emb (ix1 q)) = V c main_arg3 (ix1 q)
  refine congrArg (V c main_arg3) (funext fun a => Fin.ext ?_)
  match a with
  | ⟨0, _⟩ => show win0_4.index t (0 : Fin 1) * 128 + 1 * q.val = q.val; omega

/-! ## What a point writes back, the cover, the array -/

/-- The layer as one array of the region's entry contents. -/
abbrev layer (c : Dev nD) : S50000x128.Idx → EReal :=
  hidden (V c main_v17) (V c main_arg0) (fun p => V c main_v18 (ix2 p (0 : Fin 1))) (V c main_arg2) (V c main_arg3)

/-- Point t writes back block t of the layer. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero zeros2]
  simp only [View.ld_unit_zero (S := S2000x128) zeros2, View.ld_unit_zero (S := S2000x1) zeros2,
    View.ld_unit_zero (S := S128x128) zeros2, View.ld_unit_zero (S := S128) zeros1]
  funext j
  obtain ⟨r, q, rfl⟩ : ∃ (r : Fin 2000) (q : Fin 128), j = ix2 r q := ⟨j 0, j 1, eq_ix2 j⟩
  have ht : t.val < 25 := lt_of_lt_of_eq t.isLt N_0
  obtain ⟨-, -, -, -, -, -, -, -, -, e0, e1⟩ := index_facts t
  have hr : r.val < 2000 := r.isLt
  let p : Fin 50000 := ⟨t.val * 2000 + r.val, by omega⟩
  have hemb : ((cfg0.win 5).blk t).view.emb (ix2 r q) = (ix2 p q : S50000x128.Idx) := funext fun a => Fin.ext (by
    match a with
    | ⟨0, _⟩ => show win0_5.index t (0 : Fin 2) * 2000 + 1 * r.val = t.val * 2000 + r.val; omega
    | ⟨1, _⟩ => show win0_5.index t (1 : Fin 2) * 128 + 1 * q.val = q.val; omega)
  show k0_pay1 (iblk0 V c 2 t) (iblk0 V c 0 t) (iblk0 V c 1 t) (iblk0 V c 3 t) (iblk0 V c 4 t) (ix2 r q)
    = layer V c (((cfg0.win 5).blk t).view.emb (ix2 r q))
  rw [hemb]
  refine (hidden_block (iblk0 V c 2 t) (iblk0 V c 0 t) (iblk0 V c 1 t) (iblk0 V c 3 t) (iblk0 V c 4 t) r q).trans ?_
  exact congrArg leaky (affineBlock_eq_affine (iblk0 V c 0 t) (iblk0 V c 1 t) (iblk0 V c 2 t) (iblk0 V c 3 t) (iblk0 V c 4 t)
    (V c main_v17) (V c main_arg0) (fun p => V c main_v18 (ix2 p (0 : Fin 1))) (V c main_arg2) (V c main_arg3) r p q
    (fun k => read_msg V c t r k p rfl) (fun k => read_feat V c t r k p rfl) (read_deg V c t r p rfl)
    (fun k => read_weight V c t k q) (read_bias V c t q))

/-- An entry of the output array is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v19).slice (win0_5.rect t)).set ↔ _
  rw [View.set_slice_whole, Rect.mem_set_unit]
  exact Iff.rfl

/-- Row i 0 lies in the block of the point (i 0) / 2000: the 25 blocks cover the array. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have htv : t.val = (i 0).val / 2000 := rfl
  obtain ⟨-, -, -, -, -, -, -, -, -, e0, e1⟩ := index_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- After the grid's 25 points the output array is the layer. -/
theorem array_eq (c : Dev nD) : (dat0 V c).arrAt 5 cfg0.N = layer V c :=
  (dat0 V c).arrAt_eq_of_cover 5 (layer V c) (fun t _ => flushed_eq V c t) cover

end Cert.GraphConv.First

end
-- ==== Proof.RegionSecond.lean ====
/-
  The second grid: the output layer, as one array. Whatever the buffers hold when the grid is entered, after its 25 points the output
  array is logits of the five arrays the windows stage — the message array, the features, the degrees' column,
  the weights, the bias — entry by entry: point t writes back rows 2000·t … 2000·t + 1999, its loaded blocks are
  the same rows of the inputs (the weights and the bias whole), and the 25 blocks cover the 50000 rows.
-/
import proofs.«105902_j25847113187709_1_alg».proof.Proof.Gen.KernelIdeal.Frame
import proofs.«105902_j25847113187709_1_alg».proof.Proof.LayerBlock
import Idealize.ShloMosaic.Lib.Pipeline.Value

set_option maxRecDepth 16384

noncomputable section

namespace Cert.GraphConv.Second

open Cert.GraphConv Cert.KernelIdeal Cert.KernelIdeal.Gen
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The index maps, decided over the 25 points: the three row-blocked inputs and the output sit at block t of
    their first axis, and the weights and the bias at their one block. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-! ## The loaded blocks are rows of the arrays -/

theorem read_msg (c : Dev nD) (t : Fin cfg1.N) (r : Fin 2000) (k : Fin 128) (p : Fin 50000) (hp : p.val = t.val * 2000 + r.val) :
    iblk1 V c 0 t (ix2 r k) = V c main_v29 (ix2 p k) := by
  obtain ⟨e0, e1, -⟩ := index_facts t
  show V c main_v29 (((cfg1.win 0).blk t).view.emb (ix2 r k)) = V c main_v29 (ix2 p k)
  refine congrArg (V c main_v29) (funext fun a => Fin.ext ?_)
  match a with
  | ⟨0, _⟩ => show win1_0.index t (0 : Fin 2) * 2000 + 1 * r.val = p.val; omega
  | ⟨1, _⟩ => show win1_0.index t (1 : Fin 2) * 128 + 1 * k.val = k.val; omega

theorem read_feat (c : Dev nD) (t : Fin cfg1.N) (r : Fin 2000) (k : Fin 128) (p : Fin 50000) (hp : p.val = t.val * 2000 + r.val) :
    iblk1 V c 1 t (ix2 r k) = V c main_v19 (ix2 p k) := by
  obtain ⟨-, -, e0, e1, -⟩ := index_facts t
  show V c main_v19 (((cfg1.win 1).blk t).view.emb (ix2 r k)) = V c main_v19 (ix2 p k)
  refine congrArg (V c main_v19) (funext fun a => Fin.ext ?_)
  match a with
  | ⟨0, _⟩ => show win1_1.index t (0 : Fin 2) * 2000 + 1 * r.val = p.val; omega
  | ⟨1, _⟩ => show win1_1.index t (1 : Fin 2) * 128 + 1 * k.val = k.val; omega

theorem read_deg (c : Dev nD) (t : Fin cfg1.N) (r : Fin 2000) (p : Fin 50000) (hp : p.val = t.val * 2000 + r.val) :
    iblk1 V c 2 t (ix2 r (0 : Fin 1)) = V c main_v30 (ix2 p (0 : Fin 1)) := by
  obtain ⟨-, -, -, -, e0, e1, -⟩ := index_facts t
  show V c main_v30 (((cfg1.win 2).blk t).view.emb (ix2 r (0 : Fin 1))) = V c main_v30 (ix2 p (0 : Fin 1))
  refine congrArg (V c main_v30) (funext fun a => Fin.ext ?_)
  match a with
  | ⟨0, _⟩ => show win1_2.index t (0 : Fin 2) * 2000 + 1 * r.val = p.val; omega
  | ⟨1, _⟩ => show win1_2.index t (1 : Fin 2) * 1 + 1 * 0 = 0; omega

theorem read_weight (c : Dev nD) (t : Fin cfg1.N) (k : Fin 128) (q : Fin 32) :
    iblk1 V c 3 t (ix2 k q) = V c main_arg4 (ix2 k q) := by
  obtain ⟨-, -, -, -, -, -, e0, e1, -⟩ := index_facts t
  show V c main_arg4 (((cfg1.win 3).blk t).view.emb (ix2 k q)) = V c main_arg4 (ix2 k q)
  refine congrArg (V c main_arg4) (funext fun a => Fin.ext ?_)
  match a with
  | ⟨0, _⟩ => show win1_3.index t (0 : Fin 2) * 128 + 1 * k.val = k.val; omega
  | ⟨1, _⟩ => show win1_3.index t (1 : Fin 2) * 32 + 1 * q.val = q.val; omega

theorem read_bias (c : Dev nD) (t : Fin cfg1.N) (q : Fin 32) :
    iblk1 V c 4 t (ix1 q) = V c main_arg5 (ix1 q) := by
  obtain ⟨-, -, -, -, -, -, -, -, e0, -⟩ := index_facts t
  show V c main_arg5 (((cfg1.win 4).blk t).view.emb (ix1 q)) = V c main_arg5 (ix1 q)
  refine congrArg (V c main_arg5) (funext fun a => Fin.ext ?_)
  match a with
  | ⟨0, _⟩ => show win1_4.index t (0 : Fin 1) * 32 + 1 * q.val = q.val; omega

/-! ## What a point writes back, the cover, the array -/

/-- The layer as one array of the region's entry contents. -/
abbrev layer (c : Dev nD) : S50000x32.Idx → EReal :=
  logits (V c main_v29) (V c main_v19) (fun p => V c main_v30 (ix2 p (0 : Fin 1))) (V c main_arg4) (V c main_arg5)

/-- Point t writes back block t of the layer. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero zeros2]
  simp only [View.ld_unit_zero (S := S2000x128) zeros2, View.ld_unit_zero (S := S2000x1) zeros2,
    View.ld_unit_zero (S := S128x32) zeros2, View.ld_unit_zero (S := S32) zeros1]
  funext j
  obtain ⟨r, q, rfl⟩ : ∃ (r : Fin 2000) (q : Fin 32), j = ix2 r q := ⟨j 0, j 1, eq_ix2 j⟩
  have ht : t.val < 25 := lt_of_lt_of_eq t.isLt N_1
  obtain ⟨-, -, -, -, -, -, -, -, -, e0, e1⟩ := index_facts t
  have hr : r.val < 2000 := r.isLt
  let p : Fin 50000 := ⟨t.val * 2000 + r.val, by omega⟩
  have hemb : ((cfg1.win 5).blk t).view.emb (ix2 r q) = (ix2 p q : S50000x32.Idx) := funext fun a => Fin.ext (by
    match a with
    | ⟨0, _⟩ => show win1_5.index t (0 : Fin 2) * 2000 + 1 * r.val = t.val * 2000 + r.val; omega
    | ⟨1, _⟩ => show win1_5.index t (1 : Fin 2) * 32 + 1 * q.val = q.val; omega)
  show k1_pay1 (iblk1 V c 2 t) (iblk1 V c 0 t) (iblk1 V c 1 t) (iblk1 V c 3 t) (iblk1 V c 4 t) (ix2 r q)
    = layer V c (((cfg1.win 5).blk t).view.emb (ix2 r q))
  rw [hemb]
  refine (logits_block (iblk1 V c 2 t) (iblk1 V c 0 t) (iblk1 V c 1 t) (iblk1 V c 3 t) (iblk1 V c 4 t) r q).trans ?_
  exact (affineBlock_eq_affine (iblk1 V c 0 t) (iblk1 V c 1 t) (iblk1 V c 2 t) (iblk1 V c 3 t) (iblk1 V c 4 t)
    (V c main_v29) (V c main_v19) (fun p => V c main_v30 (ix2 p (0 : Fin 1))) (V c main_arg4) (V c main_arg5) r p q
    (fun k => read_msg V c t r k p rfl) (fun k => read_feat V c t r k p rfl) (read_deg V c t r p rfl)
    (fun k => read_weight V c t k q) (read_bias V c t q))

/-- An entry of the output array is in point t's block iff each coordinate is in the block's range on its axis. -/
theorem mem_blk (t : Fin cfg1.N) (i : S50000x32.Idx) :
    i ∈ ((cfg1.win 5).blk t).view.set ↔ ∀ a : Fin 2, win1_5.index t a * S2000x32.size a ≤ (i a).val ∧ (i a).val < win1_5.index t a * S2000x32.size a + S2000x32.size a := by
  show i ∈ ((View.whole main_v31).slice (win1_5.rect t)).set ↔ _
  rw [View.set_slice_whole, Rect.mem_set_unit]
  exact Iff.rfl

/-- Row i 0 lies in the block of the point (i 0) / 2000: the 25 blocks cover the array. -/
theorem cover (i : S50000x32.Idx) : ∃ t : Fin cfg1.N, (cfg1.win 5).flush t = true ∧ i ∈ ((cfg1.win 5).blk t).view.set := by
  have hi0 : (i 0).val < 50000 := (i 0).isLt
  have hi1 : (i 1).val < 32 := (i 1).isLt
  have hN : cfg1.N = 25 := N_1
  let t : Fin cfg1.N := ⟨(i 0).val / 2000, by rw [hN]; omega⟩
  have htv : t.val = (i 0).val / 2000 := rfl
  obtain ⟨-, -, -, -, -, -, -, -, -, e0, e1⟩ := index_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 32 ≤ (i 1).val ∧ (i 1).val < win1_5.index t (1 : Fin 2) * 32 + 32; omega

/-- After the grid's 25 points the output array is the layer. -/
theorem array_eq (c : Dev nD) : (dat1 V c).arrAt 5 cfg1.N = layer V c :=
  (dat1 V c).arrAt_eq_of_cover 5 (layer V c) (fun t _ => flushed_eq V c t) cover

end Cert.GraphConv.Second

end
-- ==== Proof.Aggregate.lean ====
/-
  The sparse part both programs share. From the edge list (a [2, 800000] array of node numbers: sources in row 0,
  destinations in row 1) the message array of a feature array h sums, into each destination's row, the rows of h at
  the edges' sources (a gather of whole rows at the sources — a negative number counted from the end — followed by a
  scatter-add at the destinations into zeros), and a node's degree is the number of edges arriving at it (a
  scatter-add of ones). Both programs compute these by the same operations with the same dimension numbers; they
  are named here once and never opened: which rows an out-of-range node number reads or drops is whatever those
  operations say, the same on both sides.
-/
import proofs.«105902_j25847113187709_1_alg».proof.Proof.Gen.KernelIdeal
import Idealize.ShloMosaic.PureOps.Ideal

noncomputable section

namespace Cert.GraphConv

open Idealize.ShloMosaic Cert.KernelIdeal Cert.KernelIdeal.Facts₀

/-- Row 0 of the edge list: the edges' sources. -/
def sources (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- Row 1 of the edge list: the edges' destinations. -/
def dests (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The message array of h: for each edge the row of h at its source, summed into the row of its destination. -/
def messages (h : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The in-degrees: one for each edge, summed at its destination. -/
def degree (dst : (⟨S800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

end Cert.GraphConv

end
-- ==== Proof.Network.lean ====
/-
  The two layers composed: what both programs compute from the node features x, the edge list e and the two layers'
  weights and biases. The hidden array is the rectified first layer over the messages of x; the result is the second
  layer over the messages of the hidden array; both layers see the same in-degrees.
-/
import proofs.«105902_j25847113187709_1_alg».proof.Proof.Layer
import proofs.«105902_j25847113187709_1_alg».proof.Proof.Aggregate
import Idealize.ShloMosaic.Lib.ValueIdx

noncomputable section

namespace Cert.GraphConv

open Idealize.ShloMosaic Idealize.ShloMosaic.ValueIdx Cert.KernelIdeal

/-- The in-degree of node p, from the edge list. -/
def degreeOf (e : (⟨S2x800000, .i32⟩ : BufTy).Contents (Elt Ideal)) : Fin 50000 → EReal :=
  fun p => degree (dests e) (ix1 p)

/-- The hidden array: the rectified first layer. -/
def hiddenOf (x : (⟨S50000x128, .f32⟩ : BufTy).Contents (Elt Ideal)) (e : (⟨S2x800000, .i32⟩ : BufTy).Contents (Elt Ideal))
    (W1 : (⟨S128x128, .f32⟩ : BufTy).Contents (Elt Ideal)) (b1 : (⟨S128, .f32⟩ : BufTy).Contents (Elt Ideal)) :
    (⟨S50000x128, .f32⟩ : BufTy).Contents (Elt Ideal) :=
  hidden (messages x (sources e) (dests e)) x (degreeOf e) W1 b1

/-- The result: the second layer over the hidden array. -/
def network (x : (⟨S50000x128, .f32⟩ : BufTy).Contents (Elt Ideal)) (e : (⟨S2x800000, .i32⟩ : BufTy).Contents (Elt Ideal))
    (W1 : (⟨S128x128, .f32⟩ : BufTy).Contents (Elt Ideal)) (b1 : (⟨S128, .f32⟩ : BufTy).Contents (Elt Ideal))
    (W2 : (⟨S128x32, .f32⟩ : BufTy).Contents (Elt Ideal)) (b2 : (⟨S32, .f32⟩ : BufTy).Contents (Elt Ideal)) :
    (⟨S50000x32, .f32⟩ : BufTy).Contents (Elt Ideal) :=
  logits (messages (hiddenOf x e W1 b1) (sources e) (dests e)) (hiddenOf x e W1 b1) (degreeOf e) W2 b2

end Cert.GraphConv

end
-- ==== Proof.HostStretches.lean ====
/-
  The kernel program's host operations, read back at the two grids' entries. Before the first grid the host
  computes, from the launch contents, the edges' sources and destinations, the in-degrees and their column, and the
  messages of the features; the parameters are untouched. Between the grids it computes the messages of whatever
  the first grid left in its output array, from the same sources and destinations, and the degrees' column again;
  the first grid's output and the second layer's parameters are untouched. Each is the shared operation applied to
  the boundary's contents, by the operations' own definitions.
-/
import proofs.«105902_j25847113187709_1_alg».proof.Proof.Gen.KernelIdeal.Frame
import proofs.«105902_j25847113187709_1_alg».proof.Proof.Network
import Idealize.ShloMosaic.Lib.StableHlo.Run
import Idealize.ShloMosaic.Lib.Pipeline.Value

set_option maxRecDepth 16384

noncomputable section

namespace Cert.GraphConv.Host

open Cert.GraphConv Cert.KernelIdeal Cert.KernelIdeal.Gen
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-- The degrees' column, read at row p, is the degree of p. -/
theorem column_apply (dg : (⟨S50000, .f32⟩ : BufTy).Contents (Elt Ideal)) (p : Fin 50000) :
    broadcastInDim S50000x1 ![0] bcast_S50000_S50000x1_0 dg (ix2 p (0 : Fin 1)) = dg (ix1 p) :=
  broadcastInDim_apply _ bcast_S50000_S50000x1_0 dg (ix2 p (0 : Fin 1)) (ix1 p) (fun a => match a with
    | ⟨0, _⟩ => by show p.val = if (50000 : Nat) = 1 then 0 else p.val; rw [if_neg (by decide)])

/-! ## Before the first grid -/

theorem first_sources : W1 m ρ c (Proc.devRef .tc main_v1) = sources (m ((c : Thread nD τ).loc main_arg1)) := by
  dsimp only [W1, hostOps0]; after_results; rfl

theorem first_dests : W1 m ρ c (Proc.devRef .tc main_v3) = dests (m ((c : Thread nD τ).loc main_arg1)) := by
  dsimp only [W1, hostOps0]; after_results; rfl

theorem first_degree : W1 m ρ c (Proc.devRef .tc main_v7) = degree (dests (m ((c : Thread nD τ).loc main_arg1))) := by
  dsimp only [W1, hostOps0]; after_results; rfl

set_option maxHeartbeats 2000000 in
theorem first_messages : W1 m ρ c (Proc.devRef .tc main_v17)
    = messages (m ((c : Thread nD τ).loc main_arg0)) (sources (m ((c : Thread nD τ).loc main_arg1))) (dests (m ((c : Thread nD τ).loc main_arg1))) := by
  dsimp only [W1, hostOps0]; after_results_simp <;> rfl

theorem first_column : W1 m ρ c (Proc.devRef .tc main_v18)
    = broadcastInDim S50000x1 ![0] bcast_S50000_S50000x1_0 (degree (dests (m ((c : Thread nD τ).loc main_arg1)))) := by
  dsimp only [W1, hostOps0]; after_results; rfl

theorem first_arg0 : W1 m ρ c (Proc.devRef .tc main_arg0) = m ((c : Thread nD τ).loc main_arg0) := by
  dsimp only [W1, hostOps0]; after_results
theorem first_arg2 : W1 m ρ c (Proc.devRef .tc main_arg2) = m ((c : Thread nD τ).loc main_arg2) := by
  dsimp only [W1, hostOps0]; after_results
theorem first_arg3 : W1 m ρ c (Proc.devRef .tc main_arg3) = m ((c : Thread nD τ).loc main_arg3) := by
  dsimp only [W1, hostOps0]; after_results
theorem first_arg4 : W1 m ρ c (Proc.devRef .tc main_arg4) = m ((c : Thread nD τ).loc main_arg4) := by
  dsimp only [W1, hostOps0]; after_results
theorem first_arg5 : W1 m ρ c (Proc.devRef .tc main_arg5) = m ((c : Thread nD τ).loc main_arg5) := by
  dsimp only [W1, hostOps0]; after_results

/-! ## Between the grids -/

theorem second_messages : W3 m ρ c (Proc.devRef .tc main_v29)
    = messages (W2 m ρ c (Proc.devRef .tc main_v19)) (W2 m ρ c (Proc.devRef .tc main_v1)) (W2 m ρ c (Proc.devRef .tc main_v3)) := by
  dsimp only [W3, hostOps1]; after_results; rfl

theorem second_column : W3 m ρ c (Proc.devRef .tc main_v30)
    = broadcastInDim S50000x1 ![0] bcast_S50000_S50000x1_0 (W2 m ρ c (Proc.devRef .tc main_v7)) := by
  dsimp only [W3, hostOps1]; after_results

theorem second_hidden : W3 m ρ c (Proc.devRef .tc main_v19) = W2 m ρ c (Proc.devRef .tc main_v19) := by
  dsimp only [W3, hostOps1]; after_results
theorem second_arg4 : W3 m ρ c (Proc.devRef .tc main_arg4) = W2 m ρ c (Proc.devRef .tc main_arg4) := by
  dsimp only [W3, hostOps1]; after_results
theorem second_arg5 : W3 m ρ c (Proc.devRef .tc main_arg5) = W2 m ρ c (Proc.devRef .tc main_arg5) := by
  dsimp only [W3, hostOps1]; after_results

end Cert.GraphConv.Host

end
-- ==== Proof.KernelValue.lean ====
/-
  The kernel program computes the network. At the end of its run the result array holds the output layer of what
  the second grid found on entry; the second grid found the messages of the first grid's output, that output
  itself, the degrees' column and the second layer's parameters; the first grid's output is the hidden layer of
  what the first grid found on entry: the messages of the features, the features, the degrees' column and the first
  layer's parameters. Read back to the launch contents, the result is the network of the six arguments.
-/
import proofs.«105902_j25847113187709_1_alg».proof.Proof.KernelRun
import proofs.«105902_j25847113187709_1_alg».proof.Proof.RegionFirst
import proofs.«105902_j25847113187709_1_alg».proof.Proof.RegionSecond
import proofs.«105902_j25847113187709_1_alg».proof.Proof.HostStretches

set_option maxRecDepth 16384

noncomputable section

namespace Cert.GraphConv.Kernel

open Cert.GraphConv Cert.KernelIdeal Cert.KernelIdeal.Gen
open Idealize.ShloMosaic Idealize.ShloMosaic.TcCoe Idealize.ShloMosaic.ValueIdx Idealize.SL.Sem

/-- A layer of equal operands is the same layer. -/
theorem hidden_congr {a a' b b' : (⟨2, ![50000, 128]⟩ : Shape).Idx → EReal} {d d' : Fin 50000 → EReal}
    {W W' : (⟨2, ![128, 128]⟩ : Shape).Idx → EReal} {bb bb' : (⟨1, ![128]⟩ : Shape).Idx → EReal}
    (h1 : a = a') (h2 : b = b') (h3 : d = d') (h4 : W = W') (h5 : bb = bb') :
    hidden a b d W bb = hidden a' b' d' W' bb' := by rw [h1, h2, h3, h4, h5]

theorem logits_congr {a a' b b' : (⟨2, ![50000, 128]⟩ : Shape).Idx → EReal} {d d' : Fin 50000 → EReal}
    {W W' : (⟨2, ![128, 32]⟩ : Shape).Idx → EReal} {bb bb' : (⟨1, ![32]⟩ : Shape).Idx → EReal}
    (h1 : a = a') (h2 : b = b') (h3 : d = d') (h4 : W = W') (h5 : bb = bb') :
    logits a b d W bb = logits a' b' d' W' bb' := by rw [h1, h2, h3, h4, h5]

variable (m : (ℓ : Loc nD τ sig) → Buf (Elt Ideal) ℓ) (ρ : Dev nD → PrngReg) (c : Dev nD)

/-- After the first grid its output array is the hidden array of the launch contents. -/
theorem hidden_array : W2 m ρ c (Proc.devRef .tc main_v19)
    = hiddenOf (m ((c : Thread nD τ).loc main_arg0)) (m ((c : Thread nD τ).loc main_arg1)) (m ((c : Thread nD τ).loc main_arg2)) (m ((c : Thread nD τ).loc main_arg3)) := by
  refine (W2_arr m ρ c 5).trans ?_
  refine (First.array_eq (V1 m ρ) c).trans ?_
  unfold hiddenOf
  exact hidden_congr (Host.first_messages m ρ c) (Host.first_arg0 m ρ c)
    (funext fun p => by
      show W1 m ρ c (Proc.devRef .tc main_v18) (ix2 p (0 : Fin 1)) = _
      rw [Host.first_column, Host.column_apply]; rfl)
    (Host.first_arg2 m ρ c) (Host.first_arg3 m ρ c)

/-- At the end of the run the result array is the network of the launch contents. -/
theorem result_array : W4 m ρ c (Proc.devRef .tc main_v31)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W4_arr m ρ c 5).trans ?_
  refine (Second.array_eq (V3 m ρ) c).trans ?_
  unfold network
  have hH := hidden_array m ρ c
  exact logits_congr
    (by show W3 m ρ c (Proc.devRef .tc main_v29) = _
        rw [Host.second_messages, hH, W2_of_ne m ρ c main_v1 (by decide), W2_of_ne m ρ c main_v3 (by decide),
          Host.first_sources, Host.first_dests])
    (by show W3 m ρ c (Proc.devRef .tc main_v19) = _
        rw [Host.second_hidden, hH])
    (funext fun p => by
      show W3 m ρ c (Proc.devRef .tc main_v30) (ix2 p (0 : Fin 1)) = _
      rw [Host.second_column, Host.column_apply, W2_of_ne m ρ c main_v7 (by decide), Host.first_degree]; rfl)
    (by show W3 m ρ c (Proc.devRef .tc main_arg4) = _
        rw [Host.second_arg4, W2_of_ne m ρ c main_arg4 (by decide), Host.first_arg4])
    (by show W3 m ρ c (Proc.devRef .tc main_arg5) = _
        rw [Host.second_arg5, W2_of_ne m ρ c main_arg5 (by decide), Host.first_arg5])

/-- Every weakly fair execution of the kernel program terminates, nothing faulting, with the result array at the
    network of the launch contents and the arguments as launched. -/
theorem run : θ_run defs (onTc (τ := τ) (main (F := Ideal))) ⟨m, fun _ => 0, ρ⟩ (fun r => ∀ c : Dev nD,
      r.2.mem ((c.tc : Thread nD τ).loc main_v31)
        = network (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_array m ρ c), (h c).2⟩)
    (Cert.KernelIdeal.Result.run_result m ρ)

end Cert.GraphConv.Kernel

end
-- ==== Proof.ReferenceLayers.lean ====
/-
  The reference computes the network. Its dense stages are read one at a time, at an entry (p, q): the sum plus the
  bias is the affine map — the quotient's denominator is the degree plus one, spread from the degrees' vector to a
  column and then along the row, so at (p, k) it is the degree of row p plus one; the product is the sum over the 128
  contracted columns; the bias vector is spread down the rows — and the select on "at least zero" between the value
  and the slope's multiple of it is the leaky rectifier. Its sparse stages are the shared gather and scatter-add,
  identified by their definitions alone.
-/
import proofs.«105902_j25847113187709_1_alg».proof.Proof.Gen.ReferenceIdeal.Read
import proofs.«105902_j25847113187709_1_alg».proof.Proof.Network

noncomputable section

open scoped BigOperators

namespace Cert.GraphConv.Reference

open Cert.GraphConv Cert.ReferenceIdeal Cert.ReferenceIdeal.Gen Cert.ReferenceIdeal.Read
open Idealize.ShloMosaic Idealize.ShloMosaic.TcCoe Idealize.ShloMosaic.ValueIdx Idealize.SL.Sem

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x32, .f32⟩ : BufTy).Contents (Elt Ideal)) (x5 : (⟨S32, .f32⟩ : BufTy).Contents (Elt Ideal))

/-! ## The first layer -/

/-- Before the rectifier, entry (p, q) of the first layer is the affine map of the stage's own operands. -/
theorem affine_first (p : Fin 50000) (q : Fin 128) :
    val_main_v27 (F := Ideal) x0 x1 x2 x3 (ix2 p q)
      = affine (val_main_v13 (F := Ideal) x0 x1) x0 (fun p => val_main_v17 (F := Ideal) x1 (ix1 p)) x2 x3 p q := by
  rw [val_main_v27_apply, val_main_v24_apply, val_main_v26_apply, val_main_v25_apply]
  have hb : idx_main_v25 (idx_main_v26 (ix2 p q)) = ix1 q := funext fun a => Fin.ext (by match a with | ⟨0, _⟩ => rfl)
  rw [hb]
  unfold affine
  show (∑ k : Fin 128, _) + x3 (ix1 q) = (∑ k : Fin 128, _) + x3 (ix1 q)
  refine congrArg (· + x3 (ix1 q)) (Finset.sum_congr rfl fun k _ => ?_)
  have hl : lidx_main_v24 (ix2 p q) k = ix2 p k := funext fun a => Fin.ext (by match a with | ⟨0, _⟩ => rfl | ⟨1, _⟩ => rfl)
  have hr : ridx_main_v24 (ix2 p q) k = ix2 k q := funext fun a => Fin.ext (by match a with | ⟨0, _⟩ => rfl | ⟨1, _⟩ => rfl)
  rw [hl, hr, val_main_v23_apply, val_main_v18_apply, val_main_v22_apply, val_main_v21_apply, val_main_v20_apply,
    val_main_v19_apply, val_main_cst_3_apply]
  have hd : idx_main_v21 (idx_main_v22 (ix2 p k)) = ix1 p := funext fun a => Fin.ext (by match a with | ⟨0, _⟩ => rfl)
  rw [hd]
  rfl

/-- The first layer's result is the hidden array of its own messages and degrees. -/
theorem hidden_eq :
    val_main_v32 (F := Ideal) x0 x1 x2 x3
      = hidden (val_main_v13 (F := Ideal) x0 x1) x0 (fun p => val_main_v17 (F := Ideal) x1 (ix1 p)) x2 x3 := by
  funext i
  obtain ⟨p, q, rfl⟩ : ∃ (p : Fin 50000) (q : Fin 128), i = ix2 p q := ⟨i 0, i 1, eq_ix2 i⟩
  rw [val_main_v32_apply, val_main_v29_apply, val_main_v31_apply, val_main_v30_apply, val_main_v28_apply,
    val_main_cst_5_apply, val_main_cst_4_apply, affine_first]
  rfl

/-! ## The second layer -/

/-- The second layer's result is the output array over the first layer's result, its messages and the degrees. -/
theorem logits_eq :
    val_main_v56 (F := Ideal) x0 x1 x2 x3 x4 x5
      = logits (val_main_v42 (F := Ideal) x0 x1 x2 x3) (val_main_v32 (F := Ideal) x0 x1 x2 x3)
          (fun p => val_main_v46 (F := Ideal) x1 (ix1 p)) x4 x5 := by
  funext i
  obtain ⟨p, q, rfl⟩ : ∃ (p : Fin 50000) (q : Fin 32), i = ix2 p q := ⟨i 0, i 1, eq_ix2 i⟩
  rw [val_main_v56_apply, val_main_v53_apply, val_main_v55_apply, val_main_v54_apply]
  have hb : idx_main_v54 (idx_main_v55 (ix2 p q)) = ix1 q := funext fun a => Fin.ext (by match a with | ⟨0, _⟩ => rfl)
  rw [hb]
  unfold logits affine
  show (∑ k : Fin 128, _) + x5 (ix1 q) = (∑ k : Fin 128, _) + x5 (ix1 q)
  refine congrArg (· + x5 (ix1 q)) (Finset.sum_congr rfl fun k _ => ?_)
  have hl : lidx_main_v53 (ix2 p q) k = ix2 p k := funext fun a => Fin.ext (by match a with | ⟨0, _⟩ => rfl | ⟨1, _⟩ => rfl)
  have hr : ridx_main_v53 (ix2 p q) k = ix2 k q := funext fun a => Fin.ext (by match a with | ⟨0, _⟩ => rfl | ⟨1, _⟩ => rfl)
  rw [hl, hr, val_main_v52_apply, val_main_v47_apply, val_main_v51_apply, val_main_v50_apply, val_main_v49_apply,
    val_main_v48_apply, val_main_cst_11_apply]
  have hd : idx_main_v50 (idx_main_v51 (ix2 p k)) = ix1 p := funext fun a => Fin.ext (by match a with | ⟨0, _⟩ => rfl)
  rw [hd]
  rfl

/-! ## The sparse stages are the shared ones -/

theorem messages_first : val_main_v13 (F := Ideal) x0 x1 = messages x0 (sources x1) (dests x1) := by
  unfold val_main_v13 val_main_v12 val_main_v11 val_main_cst val_main_v10 val_main_v9 val_main_v8 val_main_v7 val_main_v6
    val_main_c_0 val_main_v5 val_main_v4 val_main_c val_main_v3 val_main_v2 val_main_v1 val_main_v0 messages sources dests
  rfl

theorem degree_first : val_main_v17 (F := Ideal) x1 = degree (dests x1) := by
  unfold val_main_v17 val_main_v16 val_main_v15 val_main_cst_2 val_main_v14 val_main_cst_1 val_main_v3 val_main_v2 degree dests
  rfl

theorem messages_second :
    val_main_v42 (F := Ideal) x0 x1 x2 x3 = messages (val_main_v32 (F := Ideal) x0 x1 x2 x3) (sources x1) (dests x1) := by
  unfold val_main_v42 val_main_v41 val_main_v40 val_main_cst_8 val_main_v39 val_main_v38 val_main_v37 val_main_v36 val_main_v35
    val_main_c_7 val_main_v34 val_main_v33 val_main_c_6 val_main_v3 val_main_v2 val_main_v1 val_main_v0 messages sources dests
  rfl

theorem degree_second : val_main_v46 (F := Ideal) x1 = degree (dests x1) := by
  unfold val_main_v46 val_main_v45 val_main_v44 val_main_cst_10 val_main_v43 val_main_cst_9 val_main_v3 val_main_v2 degree dests
  rfl

/-! ## The reference's result -/

/-- The reference's result term is the network of its arguments. -/
theorem result_eq (m : (ℓ : Loc nD τ sig) → Buf (Elt Ideal) ℓ) (c : Dev nD) :
    Cert.ReferenceIdeal.Value.res_main_v56 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [val_main_v56_eq, logits_eq, messages_second, degree_second, hidden_eq, messages_first, degree_first]
  rfl

end Cert.GraphConv.Reference

end
-- ==== Proof.lean ====
/-
  Two layers of a graph convolution against its plain jnp reference, on the extended reals.

  Each layer takes a node's features plus the sum of its in-neighbours' features, divides by the in-degree plus
  one, multiplies by a weight matrix and adds a bias; the first layer is followed by the leaky rectifier. The
  kernel program runs each layer's dense part as a grid of 25 points over blocks of 2000 nodes, around the same
  gather and scatter-add on the host that the reference uses; the reference does everything on the host.

  On the extended reals the two agree entry by entry with nothing rearranged beyond the matrix product: the change
  of float format before the product is the identity, the product into a zero accumulator and the host's
  contraction are the same sum over 128 terms, a block of 2000 rows is the same rows of the whole array, and the
  degree plus one reaches an entry the same whether the one is added before or after the degrees are spread into a
  column. No literal differs and none is evaluated; finiteness of the inputs is not used.

  The modules: Layer (one layer, entry by entry), Aggregate (the shared gather and scatter-add, named once),
  Network (the two layers composed), LayerBlock (what a grid point stores, at an entry), RegionFirst and RegionSecond
  (each grid's output array as one layer of its entry contents), HostStretches (the host operations read back),
  KernelRun and KernelValue (the kernel program's run ends at the network of its arguments), ReferenceLayers (so does
  the reference's). The three frames are the generated ones; the idealized kernel program is the kernel program's own
  text read on the extended reals, so the claim that it preserves the original is empty.
-/
import proofs.«105902_j25847113187709_1_alg».proof.Defs
import proofs.«105902_j25847113187709_1_alg».proof.Proof.Gen.Kernel
import proofs.«105902_j25847113187709_1_alg».proof.Proof.Gen.Kernel.Skeleton
import proofs.«105902_j25847113187709_1_alg».proof.Proof.Gen.Kernel.Launch
import proofs.«105902_j25847113187709_1_alg».proof.Proof.Gen.Kernel.Points
import proofs.«105902_j25847113187709_1_alg».proof.Proof.Gen.Kernel.Frame
import proofs.«105902_j25847113187709_1_alg».proof.Proof.Gen.KernelIdeal
import proofs.«105902_j25847113187709_1_alg».proof.Proof.Gen.KernelIdeal.Skeleton
import proofs.«105902_j25847113187709_1_alg».proof.Proof.Gen.KernelIdeal.Launch
import proofs.«105902_j25847113187709_1_alg».proof.Proof.Gen.KernelIdeal.Points
import proofs.«105902_j25847113187709_1_alg».proof.Proof.Gen.KernelIdeal.Frame
import proofs.«105902_j25847113187709_1_alg».proof.Proof.Gen.ReferenceIdeal
import proofs.«105902_j25847113187709_1_alg».proof.Proof.Gen.ReferenceIdeal.Run
import proofs.«105902_j25847113187709_1_alg».proof.Proof.Gen.ReferenceIdeal.Read
import proofs.«105902_j25847113187709_1_alg».proof.Proof.Gen.Pre_finite_inputs
import proofs.«105902_j25847113187709_1_alg».proof.Proof.KernelValue
import proofs.«105902_j25847113187709_1_alg».proof.Proof.ReferenceLayers
import Idealize.ShloMosaic.Adequacy
import Idealize.ShloMosaic.Init

noncomputable section

namespace Cert.Proof

open Idealize.ShloMosaic Idealize.ShloMosaic.TcCoe Idealize.SL.Sem

/-- The word-level kernel program runs, and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel program is the kernel program's own text: there is nothing to preserve. -/
theorem preserves : Cert.preserves_Kernel_KernelIdeal := trivial

/-- From memories agreeing on the arguments both programs end with the network of the arguments in their result
    arrays: the kernel program by its run through the two grids, the reference by its run's composed term. -/
theorem algebraic : Cert.algebraic_KernelIdeal_ReferenceIdeal := by
  intro m ρ m' ρ' _ hagree
  refine ⟨fun c => Cert.GraphConv.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.GraphConv.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.GraphConv.Reference.result_eq m' c, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
